-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S800000x128 : Shape := ⟨2, ![800000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S200000x128 .f32) (main_arg1 : FVec F S800000x128 .f32) (main_arg2 : IVec S2x800000 32) (main_arg3 : FVec F S256x128 .f32) (main_arg4 : FVec F S128 .f32) (main_arg5 : FVec F S128x128 .f32) (main_arg6 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S200000x128 : Shape := ⟨2, ![200000, 128]⟩
abbrev S800000x128 : Shape := ⟨2, ![800000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128 : Shape := ⟨2, ![1, 128]⟩
abbrev S8000x128 : Shape := ⟨2, ![8000, 128]⟩

abbrev nBuf : Space → Nat
  | .hbm => 22
  | .vmem => 11
  | .smem => 0
  | _ => 0

abbrev bufTy : (tb : Table) → Fin (tcTables nBuf tb) → BufTy
  | .hbm, ⟨0, _⟩ => ⟨S200000x128, .f32⟩
  | .hbm, ⟨1, _⟩ => ⟨S800000x128, .f32⟩
  | .hbm, ⟨2, _⟩ => ⟨S2x800000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S200000x128, .f32⟩
  | .hbm, ⟨11, _⟩ => ⟨S800000x1, .i32⟩
  | .hbm, ⟨12, _⟩ => ⟨S200000x128, .f32⟩
  | .hbm, ⟨13, _⟩ => ⟨S200000x128, .bf16⟩
  | .hbm, ⟨14, _⟩ => ⟨S128x128, .f32⟩
  | .hbm, ⟨15, _⟩ => ⟨S128x128, .bf16⟩
  | .hbm, ⟨16, _⟩ => ⟨S128x128, .f32⟩
  | .hbm, ⟨17, _⟩ => ⟨S128x128, .bf16⟩
  | .hbm, ⟨18, _⟩ => ⟨S128x128, .bf16⟩
  | .hbm, ⟨19, _⟩ => ⟨S1x128, .f32⟩
  | .hbm, ⟨20, _⟩ => ⟨S1x128, .f32⟩
  | .hbm, ⟨21, _⟩ => ⟨S200000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .bf16⟩
  | .local _ .vmem, ⟨3, _⟩ => ⟨S8000x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S8000x128, .f32⟩
  | .local _ .vmem, ⟨10, _⟩ => ⟨S8000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_1_0 : S2x800000.Slices ![1, 0] S1x800000
  shapeCasts_S1x800000_S800000 : S1x800000.ShapeCasts S800000
  bcast_S_S200000x128 : S_.BroadcastsInDim S200000x128 (![] : Fin 0 → Fin S200000x128.rank)
  bcast_S800000_S800000x1_0 : S800000.BroadcastsInDim S800000x1 (![0] : Fin 1 → Fin S800000x1.rank)
  bitsLt_bf16_f32 : FTy.bits .bf16 < FTy.bits .f32
  slices_S256x128_S128x128_0_0 : S256x128.Slices ![0, 0] S128x128
  slices_S256x128_S128x128_128_0 : S256x128.Slices ![128, 0] S128x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  scatter_S200000x128_S800000x1_S800000x128_1_0_0_1_wf : ScatterDims.WF S200000x128 S800000x1 S800000x128 [1] [0] [0] 1
  dot_S8000x128_S128x128_S8000x128_1_0_0_1_n_n_wf : DotDims.WF S8000x128 S128x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S200000x128.size a
  hwx0_1 : ∀ i : grid0.Coords, EltTy.bits .bf16 = 32 ∨ (Rect.block (s := S200000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S200000x128.size a
  hwx0_7 : ∀ i : grid0.Coords, EltTy.bits .f32 = 32 ∨ (Rect.block (s := S200000x128) S8000x128.size (cc0_transform_7 i) (hinb0_7 i)).WholeWords (EltTy.packing .f32)

variable [Facts₀]

def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S200000x128 : Shape := ⟨2, ![200000, 128]⟩
abbrev S800000x128 : Shape := ⟨2, ![800000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S200000x256 : Shape := ⟨2, ![200000, 256]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S800000x128, .f32⟩
  | .hbm, ⟨2, _⟩ => ⟨S2x800000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S200000x128, .f32⟩
  | .hbm, ⟨11, _⟩ => ⟨S800000x1, .i32⟩
  | .hbm, ⟨12, _⟩ => ⟨S200000x128, .f32⟩
  | .hbm, ⟨13, _⟩ => ⟨S200000x256, .f32⟩
  | .hbm, ⟨14, _⟩ => ⟨S200000x128, .f32⟩
  | .hbm, ⟨15, _⟩ => ⟨S1x128, .f32⟩
  | .hbm, ⟨16, _⟩ => ⟨S200000x128, .f32⟩
  | .hbm, ⟨17, _⟩ => ⟨S200000x128, .f32⟩
  | .hbm, ⟨18, _⟩ => ⟨S_, .f32⟩
  | .hbm, ⟨19, _⟩ => ⟨S200000x128, .f32⟩
  | .hbm, ⟨20, _⟩ => ⟨S200000x128, .f32⟩
  | .hbm, ⟨21, _⟩ => ⟨S200000x128, .f32⟩
  | .hbm, ⟨22, _⟩ => ⟨S1x128, .f32⟩
  | .hbm, ⟨23, _⟩ => ⟨S200000x128, .f32⟩
  | .hbm, ⟨24, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S200000x128 : S_.BroadcastsInDim S200000x128 (![] : Fin 0 → Fin S200000x128.rank)
  bcast_S800000_S800000x1_0 : S800000.BroadcastsInDim S800000x1 (![0] : Fin 1 → Fin S800000x1.rank)
  concatenates_S200000x128_S200000x128_S200000x256_d1 : Shape.Concatenates [S200000x128, S200000x128] S200000x256 1
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  scatter_S200000x128_S800000x1_S800000x128_1_0_0_1_wf : ScatterDims.WF S200000x128 S800000x1 S800000x128 [1] [0] [0] 1
  dot_S200000x256_S256x128_S200000x128_1_0_0_1_n_n_wf : DotDims.WF S200000x256 S256x128 S200000x128 [1] [0] [0] [1] [] []
  dot_S200000x128_S128x128_S200000x128_1_0_0_1_n_n_wf : DotDims.WF S200000x128 S128x128 S200000x128 [1] [0] [0] [1] [] []

variable [Facts₀]

def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.Body.lean ====
/-
  What the kernel body stores at one element of its [8000, 128] output block, as a formula of the blocks it loads.

  At row `p` and column `q` of the block the body computes
    Σ_k max( Σ_l x[p,l]·A[l,k] + Σ_l g[p,l]·B[l,k] + b1[0,k], 0 )·C[k,q] + b2[0,q]
  with `x` the block of node features, `g` the block of aggregated edge features, `A`, `B` the two halves of the first
  weight matrix, `C` the second weight matrix and `b1`, `b2` the bias rows. Each of the three matrix products
  accumulates into a zero block, so at the extended reals it is the plain 128-term sum over the contracted axis;
  the changes of float format are the identity; a bias row is broadcast down the 8000 rows of the block.
-/
import proofs.«155045_j17008070492484_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.NodeMlp.Body

open Cert.KernelIdeal Cert.KernelIdeal.Gen
open Idealize.ShloMosaic Idealize.ShloMosaic.ValueIdx

/-- The row coordinate of the left operand's index is the output's row. -/
theorem lhs_row (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide),
    dif_pos (show (0 : Fin S8000x128.rank) ∈ dot_S8000x128_S128x128_S8000x128_1_0_0_1_n_n.lhsNonContracting by decide)]
  rfl

/-- The column coordinate of the right operand's index is the output's column. -/
theorem rhs_col (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide),
    dif_pos (show (1 : Fin S128x128.rank) ∈ dot_S8000x128_S128x128_S8000x128_1_0_0_1_n_n.rhsNonContracting by decide)]
  rfl

/-- A [8000,128]·[128,128] matrix product accumulated into the zero block, read at row `p`, column `q`:
    the sum over the 128 contracted positions of row `p` of the left operand against column `q` of the right. -/
theorem mm_apply {φ₁ φ₂ : FTy} (lhs : FVec Ideal S8000x128 φ₁) (rhs : FVec Ideal S128x128 φ₂) (p : Fin 8000) (q : Fin 128) :
    matmul dot_S8000x128_S128x128_S8000x128_1_0_0_1_n_n none lhs rhs (constant (F := Ideal) S8000x128 .f32 0x00000000#32) (ix2 p q)
      = ∑ k : Fin 128, lhs (ix2 p k) * rhs (ix2 k q) := by
  simp only [matmul]
  rw [Ideal.matmul_constant_zero_apply,
    ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q)
      ((contrEquiv1 dot_S8000x128_S128x128_S8000x128_1_0_0_1_n_n 128 rfl rfl).symm k) = ix2 p k := funext fun a => Fin.ext (by
    match a with
    | ⟨0, _⟩ => exact lhs_row _ _
    | ⟨1, _⟩ => exact (dot_S8000x128_S128x128_S8000x128_1_0_0_1_n_n.lhsIdx_val_of_single rfl _ _).trans hk)
  have er : dot_S8000x128_S128x128_S8000x128_1_0_0_1_n_n.rhsIdx (ix2 p q)
      ((contrEquiv1 dot_S8000x128_S128x128_S8000x128_1_0_0_1_n_n 128 rfl rfl).symm k) = ix2 k q := funext fun a => Fin.ext (by
    match a with
    | ⟨0, _⟩ => exact (dot_S8000x128_S128x128_S8000x128_1_0_0_1_n_n.rhsIdx_val_of_single rfl _ _).trans hk
    | ⟨1, _⟩ => exact rhs_col _ _)
  rw [el, er]

/-- A [1,128] bias row broadcast down the 8000 rows of the block reads, at column `q` of any row, its entry `q`. -/
theorem bias_row (v : FVec Ideal S1x128 .f32) (p : Fin 8000) (q : Fin 128) :
    broadcastTo S8000x128 (shapeCast S1x128 v shapeCasts_S1x128_S1x128) broadcasts_S1x128_S8000x128 (ix2 p q)
      = v (ix2 (0 : Fin 1) q) := by
  rw [shapeCast_self]
  exact broadcastTo_apply v broadcasts_S1x128_S8000x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

variable (x : FVec Ideal S8000x128 .f32) (g : FVec Ideal S8000x128 .bf16) (A B : FVec Ideal S128x128 .bf16)
  (b1 : FVec Ideal S1x128 .f32) (C : FVec Ideal S128x128 .bf16) (b2 : FVec Ideal S1x128 .f32)

/-- The hidden layer before the rectifier at row `p`, unit `k` of the block. -/
def preActBlk (p : Fin 8000) (k : Fin 128) : EReal :=
  (∑ l : Fin 128, x (ix2 p l) * A (ix2 l k)) + (∑ l : Fin 128, g (ix2 p l) * B (ix2 l k)) + b1 (ix2 (0 : Fin 1) k)

/-- The stored value at row `p`, column `q` of the block. -/
theorem pay_apply (p : Fin 8000) (q : Fin 128) :
    k0_pay1 (F := Ideal) x g A B b1 C b2 (ix2 p q)
      = (∑ k : Fin 128, max (preActBlk x g A B b1 p k) 0 * C (ix2 k q)) + b2 (ix2 (0 : Fin 1) q) := by
  unfold k0_pay1
  rw [addf_apply, mm_apply, bias_row]
  congr 1
  refine Finset.sum_congr rfl fun k _ => ?_
  rw [truncf_apply, maximumf_apply, broadcast_apply, addf_apply, addf_apply, mm_apply, mm_apply, bias_row]
  simp only [shapeCast_self, truncf_apply]
  show max _ (Ideal.ofBits .f32 0x00000000#32) * _ = _
  rw [Ideal.ofBits_zero_f32]
  rfl

end Cert.NodeMlp.Body

end
-- ==== Proof.Spec.lean ====
/-
  The node update as ONE function of the arrays, index by index, on the extended reals.

  For node `r` and output feature `j`:
    preAct r k = Σ_{l<128} x[r,l]·W1[l,k] + Σ_{l<128} agg[r,l]·W1[128+l,k] + b1[k]
    out r j    = Σ_{k<128} max(preAct r k, 0)·W2[k,j] + b2[j]
  where `agg` is the edge features summed onto their receiver nodes. A program that first joins `x` and `agg`
  side by side into 256 columns and contracts them against all 256 rows of `W1` computes the same `preAct`:
  a sum over 256 terms is the sum over its first 128 plus the sum over its last 128 (`sum_halves`), which
  holds in any additive commutative monoid, the extended reals among them — no finiteness is used.
-/
import Idealize.ShloMosaic.Lib.ValueIdx

noncomputable section

open scoped BigOperators

namespace Cert.NodeMlp

open Idealize.ShloMosaic Idealize.ShloMosaic.ValueIdx

/-- Row `l` of the upper half of the 256-row weight matrix (the rows that meet `x`). -/
def lo (l : Fin 128) : Fin 256 := ⟨l.val, by omega⟩
/-- Row `l` of its lower half (the rows that meet `agg`). -/
def hi (l : Fin 128) : Fin 256 := ⟨128 + l.val, by omega⟩

@[simp] theorem lo_val (l : Fin 128) : (lo l).val = l.val := rfl
@[simp] theorem hi_val (l : Fin 128) : (hi l).val = 128 + l.val := rfl

/-- A sum over 256 terms is the sum over the first 128 plus the sum over the last 128. -/
theorem sum_halves {M : Type*} [AddCommMonoid M] (f : Fin 256 → M) :
    ∑ k : Fin 256, f k = ∑ l : Fin 128, f (lo l) + ∑ l : Fin 128, f (hi l) := by
  have h : ∑ k : Fin (128 + 128), f k
      = ∑ l : Fin 128, f (Fin.castAdd 128 l) + ∑ l : Fin 128, f (Fin.natAdd 128 l) :=
    Fin.sum_univ_add (a := 128) (b := 128) f
  exact h

abbrev Nodes : Shape := ⟨2, ![200000, 128]⟩
abbrev Weights1 : Shape := ⟨2, ![256, 128]⟩
abbrev Weights2 : Shape := ⟨2, ![128, 128]⟩
abbrev Bias : Shape := ⟨1, ![128]⟩

/-- The hidden layer before its activation, for node `r` and hidden unit `k`: the node's own features against the
    upper half of `W1`, its aggregated edge features against the lower half, and the bias. -/
def preAct (x agg : Nodes.Idx → EReal) (W1 : Weights1.Idx → EReal) (b1 : Bias.Idx → EReal) (r : Fin 200000) (k : Fin 128) : EReal :=
  (∑ l : Fin 128, x (ix2 r l) * W1 (ix2 (lo l) k)) + (∑ l : Fin 128, agg (ix2 r l) * W1 (ix2 (hi l) k)) + b1 (ix1 k)

/-- The updated node features: the rectified hidden layer against `W2`, plus the second bias. -/
def nodeMlp (x agg : Nodes.Idx → EReal) (W1 : Weights1.Idx → EReal) (b1 : Bias.Idx → EReal) (W2 : Weights2.Idx → EReal)
    (b2 : Bias.Idx → EReal) : Nodes.Idx → EReal := fun i =>
  (∑ k : Fin 128, max (preAct x agg W1 b1 (i 0) k) 0 * W2 (ix2 k (i 1))) + b2 (ix1 (i 1))

theorem nodeMlp_apply (x agg : Nodes.Idx → EReal) (W1 : Weights1.Idx → EReal) (b1 : Bias.Idx → EReal) (W2 : Weights2.Idx → EReal)
    (b2 : Bias.Idx → EReal) (r : Fin 200000) (j : Fin 128) :
    nodeMlp x agg W1 b1 W2 b2 (ix2 r j) = (∑ k : Fin 128, max (preAct x agg W1 b1 r k) 0 * W2 (ix2 k j)) + b2 (ix1 j) := rfl

end Cert.NodeMlp

end
-- ==== Proof.Point.lean ====
/-
  One element of one output block is the node update at the matching element of the whole array.

  The grid cuts the 200000 nodes into 25 blocks of 8000 rows; row `p` of block `n` is node `n·8000 + p`. If the
  blocks the body loads are what they should be — rows `n·8000 …` of the node features and of the aggregated edge
  features, the upper and lower halves of `W1`, `W2`, and the two bias vectors as single rows — then the value the
  body stores at row `p`, column `q` is `nodeMlp` at node `n·8000 + p`, feature `q`. The loaded blocks enter only
  through these seven hypotheses.
-/
import proofs.«155045_j17008070492484_2_alg».proof.Proof.Body
import proofs.«155045_j17008070492484_2_alg».proof.Proof.Spec

noncomputable section

open scoped BigOperators

namespace Cert.NodeMlp

open Cert.KernelIdeal Cert.KernelIdeal.Gen
open Idealize.ShloMosaic Idealize.ShloMosaic.ValueIdx

/-- Row `p` of the block at grid point `n` is node `n·8000 + p`. -/
def row (n : Nat) (hn : n < 25) (p : Fin 8000) : Fin 200000 := ⟨n * 8000 + p.val, by omega⟩

@[simp] theorem row_val (n : Nat) (hn : n < 25) (p : Fin 8000) : (row n hn p).val = n * 8000 + p.val := rfl

theorem point_value (x : FVec Ideal S8000x128 .f32) (g : FVec Ideal S8000x128 .bf16) (A B : FVec Ideal S128x128 .bf16)
    (b1 : FVec Ideal S1x128 .f32) (C : FVec Ideal S128x128 .bf16) (b2 : FVec Ideal S1x128 .f32)
    (X AGG : Nodes.Idx → EReal) (W1 : Weights1.Idx → EReal) (B1 : Bias.Idx → EReal) (W2 : Weights2.Idx → EReal)
    (B2 : Bias.Idx → EReal) (n : Nat) (hn : n < 25)
    (hx : ∀ (p : Fin 8000) (l : Fin 128), x (ix2 p l) = X (ix2 (row n hn p) l))
    (hg : ∀ (p : Fin 8000) (l : Fin 128), g (ix2 p l) = AGG (ix2 (row n hn p) l))
    (hA : ∀ l k : Fin 128, A (ix2 l k) = W1 (ix2 (lo l) k))
    (hB : ∀ l k : Fin 128, B (ix2 l k) = W1 (ix2 (hi l) k))
    (hb1 : ∀ k : Fin 128, b1 (ix2 (0 : Fin 1) k) = B1 (ix1 k))
    (hC : ∀ k q : Fin 128, C (ix2 k q) = W2 (ix2 k q))
    (hb2 : ∀ q : Fin 128, b2 (ix2 (0 : Fin 1) q) = B2 (ix1 q))
    (p : Fin 8000) (q : Fin 128) :
    k0_pay1 (F := Ideal) x g A B b1 C b2 (ix2 p q) = nodeMlp X AGG W1 B1 W2 B2 (ix2 (row n hn p) q) := by
  rw [Body.pay_apply, nodeMlp_apply]
  unfold Body.preActBlk preAct
  simp only [hx, hg, hA, hB, hb1, hC, hb2]

end Cert.NodeMlp

end
-- ==== Proof.Entry.lean ====
/-
  What the kernel's region finds in the arrays the host operations wrote before it, read at an index.

  Before the region the program sums the edge features onto their receiver nodes (a scatter-add into zeros, at the
  second row of the edge index), cuts `W1` into its upper and lower 128 rows, and reshapes the two bias vectors into
  single rows; the changes of float format on the way are the identity on extended reals. So the window arrays hold:
  the aggregate; `W1[l, k]` and `W1[128 + l, k]`; `W2`; and `b1[k]`, `b2[k]` at row 0.
-/
import proofs.«155045_j17008070492484_2_alg».proof.Proof.Gen.KernelIdeal.Frame
import proofs.«155045_j17008070492484_2_alg».proof.Proof.Spec
import Idealize.ShloMosaic.Lib.StableHlo.Run
import Idealize.ShloMosaic.Lib.Pipeline.Value
import Idealize.ShloMosaic.Lib.ValueIdx

noncomputable section

namespace Cert.NodeMlp.Entry

open Cert.KernelIdeal Cert.KernelIdeal.Gen
open Idealize.ShloMosaic Idealize.ShloMosaic.TcCoe Idealize.SL.Sem Idealize.ShloMosaic.StableHlo
open Idealize.ShloMosaic.ValueIdx Cert.NodeMlp

/-- The edge features summed onto their receiver nodes: the scatter-add, into the zero array, of the edge-feature
    rows at the node numbers in the second row of the edge index. -/
def segSum (e : (⟨S800000x128, .f32⟩ : BufTy).Contents (Elt Ideal)) (idx : (⟨S2x800000, .i32⟩ : BufTy).Contents (Elt Ideal)) :
    (⟨S200000x128, .f32⟩ : BufTy).Contents (Elt Ideal) :=
  Host.scatterAdd scatter_S200000x128_S800000x1_S800000x128_1_0_0_1
    (broadcastInDim S200000x128 ![] bcast_S_S200000x128 (constant (F := Ideal) S_ .f32 0x00000000#32))
    (broadcastInDim S800000x1 ![0] bcast_S800000_S800000x1_0
      (shapeCast _ (extractStridedSlice S1x800000 ![1, 0] idx slices_S2x800000_S1x800000_1_0) shapeCasts_S1x800000_S800000))
    e

variable (m : (ℓ : Loc nD τ sig) → Buf (Elt Ideal) ℓ) (c : Dev nD)

/-- The second window's array is the aggregate. -/
theorem agg_at (i : S200000x128.Idx) :
    (V m c main_v5 : (⟨S200000x128, .bf16⟩ : BufTy).Contents (Elt Ideal)) i
      = segSum (m ((c : Thread nD τ).loc main_arg1)) (m ((c : Thread nD τ).loc main_arg2)) i := by
  have e : @Eq ((⟨S200000x128, .bf16⟩ : BufTy).Contents (Elt Ideal)) (V m c main_v5)
      (truncf (F := Ideal) .bf16 (segSum (m ((c : Thread nD τ).loc main_arg1)) (m ((c : Thread nD τ).loc main_arg2))) bitsLt_bf16_f32) := by
    dsimp only [V, hostOps0]
    after_results <;> rfl
  rw [e, truncf_apply]

/-- The third window's array is the upper 128 rows of `W1`. -/
theorem w1_upper_at (l k : Fin 128) :
    (V m c main_v7 : (⟨S128x128, .bf16⟩ : BufTy).Contents (Elt Ideal)) (ix2 l k)
      = (m ((c : Thread nD τ).loc main_arg3) : (⟨S256x128, .f32⟩ : BufTy).Contents (Elt Ideal)) (ix2 (lo l) k) := by
  have e : @Eq ((⟨S128x128, .bf16⟩ : BufTy).Contents (Elt Ideal)) (V m c main_v7)
      (truncf (F := Ideal) .bf16 (extractStridedSlice S128x128 ![0, 0] (m ((c : Thread nD τ).loc main_arg3)) slices_S256x128_S128x128_0_0) bitsLt_bf16_f32) := by
    dsimp only [V, hostOps0]
    after_results <;> rfl
  rw [e, truncf_apply]
  exact extractStridedSlice_apply ![0, 0] _ slices_S256x128_S128x128_0_0 (ix2 l k) (ix2 (lo l) k) (fun a => by
    match a with
    | ⟨0, _⟩ => show l.val = 0 + l.val; omega
    | ⟨1, _⟩ => show k.val = 0 + k.val; omega)

/-- The fourth window's array is the lower 128 rows of `W1`. -/
theorem w1_lower_at (l k : Fin 128) :
    (V m c main_v9 : (⟨S128x128, .bf16⟩ : BufTy).Contents (Elt Ideal)) (ix2 l k)
      = (m ((c : Thread nD τ).loc main_arg3) : (⟨S256x128, .f32⟩ : BufTy).Contents (Elt Ideal)) (ix2 (hi l) k) := by
  have e : @Eq ((⟨S128x128, .bf16⟩ : BufTy).Contents (Elt Ideal)) (V m c main_v9)
      (truncf (F := Ideal) .bf16 (extractStridedSlice S128x128 ![128, 0] (m ((c : Thread nD τ).loc main_arg3)) slices_S256x128_S128x128_128_0) bitsLt_bf16_f32) := by
    dsimp only [V, hostOps0]
    after_results <;> rfl
  rw [e, truncf_apply]
  exact extractStridedSlice_apply ![128, 0] _ slices_S256x128_S128x128_128_0 (ix2 l k) (ix2 (hi l) k) (fun a => by
    match a with
    | ⟨0, _⟩ => show 128 + l.val = 128 + l.val; rfl
    | ⟨1, _⟩ => show k.val = 0 + k.val; omega)

/-- The sixth window's array is `W2`. -/
theorem w2_at (i : S128x128.Idx) :
    (V m c main_v10 : (⟨S128x128, .bf16⟩ : BufTy).Contents (Elt Ideal)) i
      = (m ((c : Thread nD τ).loc main_arg5) : (⟨S128x128, .f32⟩ : BufTy).Contents (Elt Ideal)) i := by
  have e : @Eq ((⟨S128x128, .bf16⟩ : BufTy).Contents (Elt Ideal)) (V m c main_v10)
      (truncf (F := Ideal) .bf16 (m ((c : Thread nD τ).loc main_arg5)) bitsLt_bf16_f32) := by
    dsimp only [V, hostOps0]
    after_results <;> rfl
  rw [e, truncf_apply]

/-- The fifth window's array is the first bias as one row. -/
theorem b1_at (k : Fin 128) :
    (V m c main_v11 : (⟨S1x128, .f32⟩ : BufTy).Contents (Elt Ideal)) (ix2 (0 : Fin 1) k)
      = (m ((c : Thread nD τ).loc main_arg4) : (⟨S128, .f32⟩ : BufTy).Contents (Elt Ideal)) (ix1 k) := by
  have e : (V m c main_v11 : (⟨S1x128, .f32⟩ : BufTy).Contents (Elt Ideal))
      = shapeCast _ (m ((c : Thread nD τ).loc main_arg4)) shapeCasts_S128_S1x128 := by
    dsimp only [V, hostOps0]
    after_results <;> rfl
  rw [e]
  exact shapeCast_apply _ shapeCasts_S128_S1x128 (ix2 (0 : Fin 1) k) (ix1 k)
    (by rewrite [Shape.rowMajor_val_one, Shape.rowMajor_val_two]; show k.val = 0 * 128 + k.val; omega)

/-- The seventh window's array is the second bias as one row. -/
theorem b2_at (k : Fin 128) :
    (V m c main_v12 : (⟨S1x128, .f32⟩ : BufTy).Contents (Elt Ideal)) (ix2 (0 : Fin 1) k)
      = (m ((c : Thread nD τ).loc main_arg6) : (⟨S128, .f32⟩ : BufTy).Contents (Elt Ideal)) (ix1 k) := by
  have e : (V m c main_v12 : (⟨S1x128, .f32⟩ : BufTy).Contents (Elt Ideal))
      = shapeCast _ (m ((c : Thread nD τ).loc main_arg6)) shapeCasts_S128_S1x128 := by
    dsimp only [V, hostOps0]
    after_results <;> rfl
  rw [e]
  exact shapeCast_apply _ shapeCasts_S128_S1x128 (ix2 (0 : Fin 1) k) (ix1 k)
    (by rewrite [Shape.rowMajor_val_one, Shape.rowMajor_val_two]; show k.val = 0 * 128 + k.val; omega)

end Cert.NodeMlp.Entry

end
-- ==== Proof.Blocks.lean ====
/-
  From the 25 output blocks to the whole result array.

  Grid point `t` loads rows `t·8000 …` of the node features and of the aggregate, and the weight and bias arrays
  whole; what it writes back is rows `t·8000 …` of `nodeMlp` of the arrays the region found (`flushed_eq`). Every
  node lies in exactly the block of point `node / 8000`, so the blocks cover the array (`cover`) and the result
  array ends holding `nodeMlp` everywhere (`final`); the run is the generated blockwise run re-posted (`run`).
-/
import proofs.«155045_j17008070492484_2_alg».proof.Proof.Gen.KernelIdeal.Value
import proofs.«155045_j17008070492484_2_alg».proof.Proof.Point
import proofs.«155045_j17008070492484_2_alg».proof.Proof.Entry

noncomputable section

namespace Cert.NodeMlp.Blocks

open Cert.KernelIdeal Cert.KernelIdeal.Gen Cert.KernelIdeal.Value
open Idealize.ShloMosaic Idealize.ShloMosaic.TcCoe Idealize.SL.Sem
open Idealize.ShloMosaic.Pipeline (Dat)
open Idealize.ShloMosaic.ValueIdx Cert.NodeMlp Cert.NodeMlp.Entry

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 25 grid points: the node-feature, aggregate and output windows take block `t`
    of their rows at point `t`; the weight and bias windows always take their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem lt25 (t : Fin cfg0.N) : t.val < 25 := Nat.lt_of_lt_of_eq t.isLt N_0

/-- The node update of the arrays as launched: what the result array will hold. -/
def out (c : Dev nD) : Buf (Elt Ideal) ((c : Thread nD τ).loc main_v13) :=
  nodeMlp (m ((c : Thread nD τ).loc main_arg0))
    (segSum (m ((c : Thread nD τ).loc main_arg1)) (m ((c : Thread nD τ).loc main_arg2)))
    (m ((c : Thread nD τ).loc main_arg3)) (m ((c : Thread nD τ).loc main_arg4))
    (m ((c : Thread nD τ).loc main_arg5)) (m ((c : Thread nD τ).loc main_arg6))

/-! ## Each input block, read at an element -/

/-- Row `p` of the node-feature block at point `t` is node `t·8000 + p`. -/
theorem read_x (c : Dev nD) (t : Fin cfg0.N) (p : Fin 8000) (l : Fin 128) :
    (iblk m c 0 t : FVec Ideal S8000x128 .f32) (ix2 p l)
      = (m ((c : Thread nD τ).loc main_arg0) : (⟨S200000x128, .f32⟩ : BufTy).Contents (Elt Ideal)) (ix2 (row t.val (lt25 t) p) l) := by
  obtain ⟨e0, e1, -⟩ := idx_facts t
  unfold iblk
  rw [View.read_apply]
  show V m c main_arg0 (((cfg0.win 0).blk t).view.emb (ix2 p l)) = _
  rw [V_main_arg0]
  refine congrArg _ (funext fun a => Fin.ext ?_)
  match a with
  | ⟨0, _⟩ => show win0_0.index t (0 : Fin 2) * 8000 + 1 * p.val = t.val * 8000 + p.val; rw [e0]; omega
  | ⟨1, _⟩ => show win0_0.index t (1 : Fin 2) * 128 + 1 * l.val = l.val; rw [e1]; omega

/-- Row `p` of the second window's block at point `t` is row `t·8000 + p` of any function `G` that window's array
    equals: the fact is about where the block sits in the array, not about what the array holds. -/
theorem read_g_of (c : Dev nD) (t : Fin cfg0.N) (G : S200000x128.Idx → EReal)
    (hG : ∀ i : S200000x128.Idx, (V m c main_v5 : (⟨S200000x128, .bf16⟩ : BufTy).Contents (Elt Ideal)) i = G i)
    (p : Fin 8000) (l : Fin 128) :
    (iblk m c 1 t : FVec Ideal S8000x128 .bf16) (ix2 p l) = G (ix2 (row t.val (lt25 t) p) l) := by
  obtain ⟨-, -, e0, e1, -⟩ := idx_facts t
  unfold iblk
  rw [View.read_apply]
  rw [cast_eq, hG]
  refine congrArg G (funext fun a => Fin.ext ?_)
  match a with
  | ⟨0, _⟩ => show win0_1.index t (0 : Fin 2) * 8000 + 1 * p.val = t.val * 8000 + p.val; rw [e0]; omega
  | ⟨1, _⟩ => show win0_1.index t (1 : Fin 2) * 128 + 1 * l.val = l.val; rw [e1]; omega

/-- Row `p` of the aggregate block at point `t` is the aggregate at node `t·8000 + p`. -/
theorem read_g (c : Dev nD) (t : Fin cfg0.N) (p : Fin 8000) (l : Fin 128) :
    (iblk m c 1 t : FVec Ideal S8000x128 .bf16) (ix2 p l)
      = segSum (m ((c : Thread nD τ).loc main_arg1)) (m ((c : Thread nD τ).loc main_arg2)) (ix2 (row t.val (lt25 t) p) l) :=
  read_g_of m c t (segSum (m ((c : Thread nD τ).loc main_arg1)) (m ((c : Thread nD τ).loc main_arg2))) (agg_at m c) p l

/-- The upper-half weight block is rows `0 … 127` of `W1`, at every point. -/
theorem read_w1_upper (c : Dev nD) (t : Fin cfg0.N) (l k : Fin 128) :
    (iblk m c 2 t : FVec Ideal S128x128 .bf16) (ix2 l k)
      = (m ((c : Thread nD τ).loc main_arg3) : (⟨S256x128, .f32⟩ : BufTy).Contents (Elt Ideal)) (ix2 (lo l) k) := by
  obtain ⟨-, -, -, -, e0, e1, -⟩ := idx_facts t
  unfold iblk
  rw [View.read_apply]
  show V m c main_v7 (((cfg0.win 2).blk t).view.emb (ix2 l k)) = _
  rw [← w1_upper_at m c l k]
  refine congrArg _ (funext fun a => Fin.ext ?_)
  match a with
  | ⟨0, _⟩ => show win0_2.index t (0 : Fin 2) * 128 + 1 * l.val = l.val; rw [e0]; omega
  | ⟨1, _⟩ => show win0_2.index t (1 : Fin 2) * 128 + 1 * k.val = k.val; rw [e1]; omega

/-- The lower-half weight block is rows `128 … 255` of `W1`, at every point. -/
theorem read_w1_lower (c : Dev nD) (t : Fin cfg0.N) (l k : Fin 128) :
    (iblk m c 3 t : FVec Ideal S128x128 .bf16) (ix2 l k)
      = (m ((c : Thread nD τ).loc main_arg3) : (⟨S256x128, .f32⟩ : BufTy).Contents (Elt Ideal)) (ix2 (hi l) k) := by
  obtain ⟨-, -, -, -, -, -, e0, e1, -⟩ := idx_facts t
  unfold iblk
  rw [View.read_apply]
  show V m c main_v9 (((cfg0.win 3).blk t).view.emb (ix2 l k)) = _
  rw [← w1_lower_at m c l k]
  refine congrArg _ (funext fun a => Fin.ext ?_)
  match a with
  | ⟨0, _⟩ => show win0_3.index t (0 : Fin 2) * 128 + 1 * l.val = l.val; rw [e0]; omega
  | ⟨1, _⟩ => show win0_3.index t (1 : Fin 2) * 128 + 1 * k.val = k.val; rw [e1]; omega

/-- The first bias block is `b1` as one row, at every point. -/
theorem read_b1 (c : Dev nD) (t : Fin cfg0.N) (k : Fin 128) :
    (iblk m c 4 t : FVec Ideal S1x128 .f32) (ix2 (0 : Fin 1) k)
      = (m ((c : Thread nD τ).loc main_arg4) : (⟨S128, .f32⟩ : BufTy).Contents (Elt Ideal)) (ix1 k) := by
  obtain ⟨-, -, -, -, -, -, -, -, e0, e1, -⟩ := idx_facts t
  unfold iblk
  rw [View.read_apply]
  show V m c main_v11 (((cfg0.win 4).blk t).view.emb (ix2 (0 : Fin 1) k)) = _
  rw [← b1_at m c k]
  refine congrArg _ (funext fun a => Fin.ext ?_)
  match a with
  | ⟨0, _⟩ => show win0_4.index t (0 : Fin 2) * 1 + 1 * 0 = 0; rw [e0]
  | ⟨1, _⟩ => show win0_4.index t (1 : Fin 2) * 128 + 1 * k.val = k.val; rw [e1]; omega

/-- The second weight block is `W2`, at every point. -/
theorem read_w2 (c : Dev nD) (t : Fin cfg0.N) (k q : Fin 128) :
    (iblk m c 5 t : FVec Ideal S128x128 .bf16) (ix2 k q)
      = (m ((c : Thread nD τ).loc main_arg5) : (⟨S128x128, .f32⟩ : BufTy).Contents (Elt Ideal)) (ix2 k q) := by
  obtain ⟨-, -, -, -, -, -, -, -, -, -, e0, e1, -⟩ := idx_facts t
  unfold iblk
  rw [View.read_apply]
  show V m c main_v10 (((cfg0.win 5).blk t).view.emb (ix2 k q)) = _
  rw [← w2_at m c (ix2 k q)]
  refine congrArg _ (funext fun a => Fin.ext ?_)
  match a with
  | ⟨0, _⟩ => show win0_5.index t (0 : Fin 2) * 128 + 1 * k.val = k.val; rw [e0]; omega
  | ⟨1, _⟩ => show win0_5.index t (1 : Fin 2) * 128 + 1 * q.val = q.val; rw [e1]; omega

/-- The second bias block is `b2` as one row, at every point. -/
theorem read_b2 (c : Dev nD) (t : Fin cfg0.N) (k : Fin 128) :
    (iblk m c 6 t : FVec Ideal S1x128 .f32) (ix2 (0 : Fin 1) k)
      = (m ((c : Thread nD τ).loc main_arg6) : (⟨S128, .f32⟩ : BufTy).Contents (Elt Ideal)) (ix1 k) := by
  obtain ⟨-, -, -, -, -, -, -, -, -, -, -, -, e0, e1, -⟩ := idx_facts t
  unfold iblk
  rw [View.read_apply]
  show V m c main_v12 (((cfg0.win 6).blk t).view.emb (ix2 (0 : Fin 1) k)) = _
  rw [← b2_at m c k]
  refine congrArg _ (funext fun a => Fin.ext ?_)
  match a with
  | ⟨0, _⟩ => show win0_6.index t (0 : Fin 2) * 1 + 1 * 0 = 0; rw [e0]
  | ⟨1, _⟩ => show win0_6.index t (1 : Fin 2) * 128 + 1 * k.val = k.val; rw [e1]; omega

/-! ## What a point writes back, the cover, and the array after the run -/

/-- Point `t` writes back block `t` of the node update. -/
theorem flushed_eq (c : Dev nD) (t : Fin cfg0.N) :
    (dats m 0 c).flushed 7 t = ((cfg0.win 7).blk t).view.read (Elt Ideal) (out m c) := by
  obtain ⟨-, -, -, -, -, -, -, -, -, -, -, -, -, -, e0, e1⟩ := idx_facts t
  rw [flushed7]
  unfold out0_7
  rw [View.canon_unit_zero hz]
  simp only [View.ld_unit_zero (S := S8000x128) hz, View.ld_unit_zero (S := S128x128) hz, View.ld_unit_zero (S := S1x128) hz]
  funext j
  obtain ⟨p, q, rfl⟩ : ∃ (p : Fin 8000) (q : Fin 128), j = ix2 p q := ⟨j 0, j 1, eq_ix2 j⟩
  show k0_pay1 (F := Ideal) (iblk m c 0 t) (iblk m c 1 t) (iblk m c 2 t) (iblk m c 3 t) (iblk m c 4 t) (iblk m c 5 t) (iblk m c 6 t) (ix2 p q)
    = out m c (((cfg0.win 7).blk t).view.emb (ix2 p q))
  have hemb : ((cfg0.win 7).blk t).view.emb (ix2 p q) = ix2 (row t.val (lt25 t) p) q := funext fun a => Fin.ext (by
    match a with
    | ⟨0, _⟩ => show win0_7.index t (0 : Fin 2) * 8000 + 1 * p.val = t.val * 8000 + p.val; rw [e0]; omega
    | ⟨1, _⟩ => show win0_7.index t (1 : Fin 2) * 128 + 1 * q.val = q.val; rw [e1]; omega)
  rw [hemb]
  exact point_value (iblk m c 0 t) (iblk m c 1 t) (iblk m c 2 t) (iblk m c 3 t) (iblk m c 4 t) (iblk m c 5 t) (iblk m c 6 t)
    (m ((c : Thread nD τ).loc main_arg0))
    (segSum (m ((c : Thread nD τ).loc main_arg1)) (m ((c : Thread nD τ).loc main_arg2)))
    (m ((c : Thread nD τ).loc main_arg3)) (m ((c : Thread nD τ).loc main_arg4))
    (m ((c : Thread nD τ).loc main_arg5)) (m ((c : Thread nD τ).loc main_arg6))
    t.val (lt25 t) (read_x m c t) (read_g m c t) (read_w1_upper m c t) (read_w1_lower m c t) (read_b1 m c t)
    (read_w2 m c t) (read_b2 m c t) p q

/-- An index of the array is in point `t`'s block iff each coordinate is in the block's range on its axis. -/
theorem mem_blk (t : Fin cfg0.N) (i : S200000x128.Idx) :
    i ∈ ((cfg0.win 7).blk t).view.set ↔ ∀ a : Fin 2, win0_7.index t a * S8000x128.size a ≤ (i a).val
      ∧ (i a).val < win0_7.index t a * S8000x128.size a + S8000x128.size a := by
  show i ∈ ((View.whole main_v13).slice (win0_7.rect t)).set ↔ _
  rw [View.set_slice_whole, Rect.mem_set_unit]
  exact Iff.rfl

/-- Every element of the result array is in the block of the point numbered by its node divided by 8000. -/
theorem cover (i : S200000x128.Idx) :
    ∃ t : Fin cfg0.N, (cfg0.win 7).flush t = true ∧ i ∈ ((cfg0.win 7).blk t).view.set := by
  have hi0 : (i 0).val < 200000 := (i 0).isLt
  have hi1 : (i 1).val < 128 := (i 1).isLt
  have hN : cfg0.N = 25 := N_0
  have ht : (i 0).val / 8000 < cfg0.N := by rw [hN]; omega
  obtain ⟨-, -, -, -, -, -, -, -, -, -, -, -, -, -, e0, e1⟩ := idx_facts ⟨(i 0).val / 8000, ht⟩
  refine ⟨⟨(i 0).val / 8000, ht⟩, flush0_7 _, ?_⟩
  rw [mem_blk]
  intro a
  match a with
  | ⟨0, _⟩ =>
    show win0_7.index ⟨(i 0).val / 8000, ht⟩ (0 : Fin 2) * 8000 ≤ (i 0).val
      ∧ (i 0).val < win0_7.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win0_7.index ⟨(i 0).val / 8000, ht⟩ (1 : Fin 2) * 128 ≤ (i 1).val
      ∧ (i 1).val < win0_7.index ⟨(i 0).val / 8000, ht⟩ (1 : Fin 2) * 128 + 128
    rw [e1]
    omega

/-- The result array after the run is the node update of the arrays as launched. -/
theorem final (c : Dev nD) : (dats m 0 c).arrAt 7 cfg0.N = out m c :=
  (dats m 0 c).arrAt_eq_of_cover 7 (out m c) (fun t _ => flushed_eq m c t) cover

/-- The kernel's run: the result array ends at the node update of the arguments, the arguments unchanged. -/
theorem run : θ_run defs (onTc (τ := τ) (main (F := Ideal))) ⟨m, fun _ => 0, ρ⟩ fun r => ∀ c : Dev nD,
      r.2.mem ((c : Thread nD τ).loc main_v13) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.NodeMlp.Blocks

end
-- ==== Proof.RefSide.lean ====
/-
  The reference program's result is the node update `nodeMlp` of its arguments, with `agg` the scatter-add of the
  edge features onto their receivers.

  The reference joins `x` and `agg` side by side into a [200000, 256] array and contracts all 256 columns against
  `W1`. Column `l < 128` of the joined array is `x[·, l]` and column `128 + l` is `agg[·, l]`, so the 256-term
  contraction, split into its two halves, is the two 128-term contractions of the specification. The rest is read
  stage by stage: the bias rows broadcast over the nodes, the rectifier as a maximum with the zero array, the
  second contraction and the second bias.
-/
import proofs.«155045_j17008070492484_2_alg».proof.Proof.Gen.ReferenceIdeal.Read
import proofs.«155045_j17008070492484_2_alg».proof.Proof.Spec

noncomputable section

open scoped BigOperators

namespace Cert.NodeMlp.Ref

open Cert.ReferenceIdeal Cert.ReferenceIdeal.Gen Cert.ReferenceIdeal.Read
open Idealize.ShloMosaic Idealize.ShloMosaic.ValueIdx Cert.NodeMlp

variable (x0 : (⟨S200000x128, .f32⟩ : BufTy).Contents (Elt Ideal)) (x1 : (⟨S800000x128, .f32⟩ : BufTy).Contents (Elt Ideal))
  (x2 : (⟨S2x800000, .i32⟩ : BufTy).Contents (Elt Ideal)) (x3 : (⟨S256x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-- Column `l` of the joined array, for `l` among the first 128 columns, is column `l` of `x`. -/
theorem joined_lo (r : Fin 200000) (l : Fin 128) :
    val_main_v5 (F := Ideal) x0 x1 x2 (ix2 r (lo l)) = x0 (ix2 r l) := by
  unfold val_main_v5
  exact concatenate_pair_apply_left (1 : Fin 2) x0 _ concatenates_S200000x128_S200000x128_S200000x256_d1 (ix2 r (lo l)) rfl (ix2 r l)
    (fun b => by match b with | ⟨0, _⟩ => rfl | ⟨1, _⟩ => rfl)

/-- Column `128 + l` of the joined array is column `l` of the aggregated edge features. -/
theorem joined_hi (r : Fin 200000) (l : Fin 128) :
    val_main_v5 (F := Ideal) x0 x1 x2 (ix2 r (hi l)) = val_main_v4 (F := Ideal) x1 x2 (ix2 r l) := by
  unfold val_main_v5
  exact concatenate_pair_apply_right (s₁ := S200000x128) (s₂ := S200000x128) (1 : Fin 2) x0 (val_main_v4 (F := Ideal) x1 x2)
    concatenates_S200000x128_S200000x128_S200000x256_d1 (ix2 r (hi l)) rfl rfl (ix2 r l)
    (fun b hb => by match b with | ⟨0, _⟩ => rfl | ⟨1, _⟩ => exact absurd rfl hb)
    (by show l.val + 128 = 128 + l.val; omega)

/-- The 256-term contraction of any joined array against `W1`, split into the contraction of its first 128 columns
    against the upper rows and of its last 128 columns against the lower rows. -/
theorem contract_eq (y : (⟨S200000x256, .f32⟩ : BufTy).Contents (Elt Ideal)) (r : Fin 200000) (k : Fin 128) :
    (∑ k' : Fin 256, y (lidx_main_v6 (ix2 r k) k') * x3 (ridx_main_v6 (ix2 r k) k'))
      = (∑ l : Fin 128, y (ix2 r (lo l)) * x3 (ix2 (lo l) k)) + ∑ l : Fin 128, y (ix2 r (hi l)) * x3 (ix2 (hi l) k) := by
  refine (sum_halves _).trans ?_
  have el : ∀ k' : Fin 256, lidx_main_v6 (ix2 r k) k' = ix2 r k' := fun k' =>
    funext fun a => Fin.ext (by match a with | ⟨0, _⟩ => rfl | ⟨1, _⟩ => rfl)
  have er : ∀ k' : Fin 256, ridx_main_v6 (ix2 r k) k' = ix2 k' k := fun k' =>
    funext fun a => Fin.ext (by match a with | ⟨0, _⟩ => rfl | ⟨1, _⟩ => rfl)
  simp only [el, er]

/-- The reference's hidden layer before the rectifier is the specification's: the 256-term contraction in halves. -/
theorem preAct_eq (r : Fin 200000) (k : Fin 128) :
    val_main_v9 (F := Ideal) x0 x1 x2 x3 x4 (ix2 r k) = preAct x0 (val_main_v4 (F := Ideal) x1 x2) x3 x4 r k := by
  rw [val_main_v9_apply, val_main_v6_apply, contract_eq, val_main_v8_apply, val_main_v7_apply,
    show idx_main_v7 (idx_main_v8 (ix2 r k)) = ix1 k from
      funext fun a => Fin.ext (by match a with | ⟨0, _⟩ => rfl)]
  unfold preAct
  simp only [joined_lo, joined_hi, Ideal.addf_def]

/-- The reference's result is the node update of its arguments. -/
theorem result_eq :
    val_main_v14 (F := Ideal) x0 x1 x2 x3 x4 x5 x6 = nodeMlp x0 (val_main_v4 (F := Ideal) x1 x2) x3 x4 x5 x6 := by
  funext i
  obtain ⟨r, j, rfl⟩ : ∃ (r : Fin 200000) (j : Fin 128), i = ix2 r j := ⟨i 0, i 1, eq_ix2 i⟩
  have el : ∀ k : Fin 128, lidx_main_v11 (ix2 r j) k = ix2 r k := fun k =>
    funext fun a => Fin.ext (by match a with | ⟨0, _⟩ => rfl | ⟨1, _⟩ => rfl)
  have er : ∀ k : Fin 128, ridx_main_v11 (ix2 r j) k = ix2 k j := fun k =>
    funext fun a => Fin.ext (by match a with | ⟨0, _⟩ => rfl | ⟨1, _⟩ => rfl)
  rw [nodeMlp_apply, val_main_v14_apply, val_main_v11_apply, val_main_v13_apply, val_main_v12_apply,
    show idx_main_v12 (idx_main_v13 (ix2 r j)) = ix1 j from
      funext fun a => Fin.ext (by match a with | ⟨0, _⟩ => rfl)]
  simp only [el, er, val_main_v10_apply, preAct_eq, val_main_call0_v0_apply, val_main_call0_cst_apply,
    Ideal.addf_def, Ideal.maximumf_def, Ideal.ofBits_def, Ideal.ofBits_zero_f32]

end Cert.NodeMlp.Ref

end
-- ==== Proof.lean ====
/-
  The proof of `Cert.Claim` for the graph-network node update.

  Both programs first sum the edge features onto their receiver nodes (`agg`, one scatter-add, the same term in
  both), then apply a two-layer perceptron to each node:
    out[r, j] = Σ_k max( Σ_l x[r,l]·W1[l,k] + Σ_l agg[r,l]·W1[128+l,k] + b1[k], 0 )·W2[k,j] + b2[j].
  The kernel computes it block by block over 25 blocks of 8000 nodes, contracting `x` against the upper half of
  `W1` and `agg` against the lower half (Proof/Body.lean, Proof/Point.lean, Proof/Entry.lean, Proof/Blocks.lean). The
  reference joins `x` and `agg` into 256 columns and contracts them against all of `W1`; a 256-term sum is the sum of
  its two 128-term halves (Proof/Spec.lean `sum_halves`), so it computes the same function (Proof/RefSide.lean). The
  law holds in every additive commutative monoid, so the extended reals' infinities need no care and the
  precondition is never opened. On extended reals a change of float format is the identity, which is all the kernel's
  roundings to the narrower format amount to there; the idealization rewrote no operation, so `preserves` is `True`.
  The frames are the generated ones; the reference's frame is its generated run with the result dropped.
-/
import proofs.«155045_j17008070492484_2_alg».proof.Defs
import proofs.«155045_j17008070492484_2_alg».proof.Proof.Gen.Kernel
import proofs.«155045_j17008070492484_2_alg».proof.Proof.Gen.Kernel.Skeleton
import proofs.«155045_j17008070492484_2_alg».proof.Proof.Gen.Kernel.Launch
import proofs.«155045_j17008070492484_2_alg».proof.Proof.Gen.Kernel.Points
import proofs.«155045_j17008070492484_2_alg».proof.Proof.Gen.Kernel.Frame
import proofs.«155045_j17008070492484_2_alg».proof.Proof.Gen.KernelIdeal
import proofs.«155045_j17008070492484_2_alg».proof.Proof.Gen.KernelIdeal.Skeleton
import proofs.«155045_j17008070492484_2_alg».proof.Proof.Gen.KernelIdeal.Launch
import proofs.«155045_j17008070492484_2_alg».proof.Proof.Gen.KernelIdeal.Points
import proofs.«155045_j17008070492484_2_alg».proof.Proof.Gen.KernelIdeal.Frame
import proofs.«155045_j17008070492484_2_alg».proof.Proof.Gen.ReferenceIdeal
import proofs.«155045_j17008070492484_2_alg».proof.Proof.Gen.Pre_finite_inputs
import proofs.«155045_j17008070492484_2_alg».proof.Proof.Gen.KernelIdeal.Value
import proofs.«155045_j17008070492484_2_alg».proof.Proof.Gen.ReferenceIdeal.Run
import proofs.«155045_j17008070492484_2_alg».proof.Proof.Gen.ReferenceIdeal.Read
import proofs.«155045_j17008070492484_2_alg».proof.Proof.Blocks
import proofs.«155045_j17008070492484_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The two programs sum the same edge-feature rows onto the same receiver nodes: the aggregate the reference
    computes is the aggregate the kernel's region finds, as one term of the edge features and the edge index. -/
theorem agg_same (e : (⟨Cert.ReferenceIdeal.S800000x128, .f32⟩ : BufTy).Contents (Elt Ideal))
    (idx : (⟨Cert.ReferenceIdeal.S2x800000, .i32⟩ : BufTy).Contents (Elt Ideal)) :
    Cert.ReferenceIdeal.Read.val_main_v4 (F := Ideal) e idx = Cert.NodeMlp.Entry.segSum e idx := rfl

/-- From memories that agree on the arguments, the kernel's result array ends at the node update of the arguments
    (Proof/Blocks.lean) and the reference's at the same function of the same arguments (Proof/RefSide.lean). -/
theorem algebraic : Cert.algebraic_KernelIdeal_ReferenceIdeal := by
  intro m ρ m' ρ' _ hagree
  refine ⟨_, Cert.NodeMlp.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6, Cert.ReferenceIdeal.Read.val_main_v14_eq, Cert.NodeMlp.Ref.result_eq, agg_same]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
